-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x16x64 : Shape := ⟨4, ![2, 2048, 16, 64]⟩
abbrev S_ : Shape := ⟨0, ![]⟩

class Facts : Prop where
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  h_S_ : 0 < S_.numel

variable [Facts]

def fn {F : FTy → Type} [FloatOps F] (main_arg0 : FVec F S2x2048x16x64 .f32) (main_arg1 : FVec F S2x2048x16x64 .f32) (main_arg2 : FVec F S2x2048x16x64 .f32) : IVec S_ 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_c : IVec S_ 1 := constantI S_ 1 1#1
  let main_v3 : IVec S_ 1 := (fun x v => Host.reduce IntOp.andi x v reducesTo_S2x2048x16x64_S_d0_1_2_3 h_S_) main_v2 main_c
  let main_v4 : FVec F S2x2048x16x64 .f32 := Host.absf main_arg1
  let main_cst_0 : FVec F S_ .f32 := constant S_ .f32 0x7F800000#32
  let main_v5 : FVec F S2x2048x16x64 .f32 := broadcastInDim S2x2048x16x64 ![] bcast_S_S2x2048x16x64 main_cst_0
  let main_v6 : IVec S2x2048x16x64 1 := cmpf .olt main_v4 main_v5
  let main_c_1 : IVec S_ 1 := constantI S_ 1 1#1
  let main_v7 : IVec S_ 1 := (fun x v => Host.reduce IntOp.andi x v reducesTo_S2x2048x16x64_S_d0_1_2_3 h_S_) main_v6 main_c_1
  let main_v8 : IVec S_ 1 := andi main_v3 main_v7
  let main_v9 : FVec F S2x2048x16x64 .f32 := Host.absf main_arg2
  let main_cst_2 : FVec F S_ .f32 := constant S_ .f32 0x7F800000#32
  let main_v10 : FVec F S2x2048x16x64 .f32 := broadcastInDim S2x2048x16x64 ![] bcast_S_S2x2048x16x64 main_cst_2
  let main_v11 : IVec S2x2048x16x64 1 := cmpf .olt main_v9 main_v10
  let main_c_3 : IVec S_ 1 := constantI S_ 1 1#1
  let main_v12 : IVec S_ 1 := (fun x v => Host.reduce IntOp.andi x v reducesTo_S2x2048x16x64_S_d0_1_2_3 h_S_) main_v11 main_c_3
  let main_v13 : IVec S_ 1 := andi main_v8 main_v12
  main_v13
-- ==== Kernel.lean ====
abbrev S2x2048x16x64 : Shape := ⟨4, ![2, 2048, 16, 64]⟩
abbrev S2x2048x1024 : Shape := ⟨3, ![2, 2048, 1024]⟩
abbrev S1x512x128 : Shape := ⟨3, ![1, 512, 128]⟩
abbrev S1x2048x128 : Shape := ⟨3, ![1, 2048, 128]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S2x2048x16x64_S2x2048x1024 : S2x2048x16x64.ShapeCasts S2x2048x1024
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  bitsLt_bf16_f32 : FTy.bits .bf16 < FTy.bits .f32
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  inb_S1x512x128_S1x512x64_0_0_64 : ∀ a, (![0, 0, 64] : Fin 3 → Nat) a + S1x512x64.size a ≤ S1x512x128.size a
  inb_S1x2048x128_S1x2048x64_0_0_64 : ∀ a, (![0, 0, 64] : Fin 3 → Nat) a + S1x2048x64.size a ≤ S1x2048x128.size a
  shapeCasts_S2x2048x1024_S2x2048x16x64 : S2x2048x1024.ShapeCasts S2x2048x16x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S2x2048x1024.size a
  hwx0_0 : ∀ i : grid0.Coords, EltTy.bits .f32 = 32 ∨ (Rect.block (s := S2x2048x1024) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S2x2048x1024.size a
  hwx0_1 : ∀ i : grid0.Coords, EltTy.bits .f32 = 32 ∨ (Rect.block (s := S2x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S2x2048x1024.size a
  hwx0_2 : ∀ i : grid0.Coords, EltTy.bits .f32 = 32 ∨ (Rect.block (s := S2x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S2x2048x1024.size a
  hwx0_3 : ∀ i : grid0.Coords, EltTy.bits .f32 = 32 ∨ (Rect.block (s := S2x2048x1024) S1x512x128.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x16x2048x64, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | .hbm, ⟨25, _⟩ => ⟨S2x2048x16x64, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The function both programs compute, written once over the argument arrays q, k, v of shape [2, 2048, 16, 64]
  (batch, position, head, feature).  For a batch b and a head h, the query at position n is scored against every key
  position c by the inner product over the 64 features, scaled by 2⁻³; the scores of a row are turned into weights
  exp (s c - max s), normalised by their sum, and the result at feature d is the weighted sum of the values v[b, c, h, d].
  The maximum of a row is a fold of max from -∞ and the sums are finite sums over the 2048 positions, so the order in
  which either program visits the positions does not enter.
-/
import Idealize.ShloMosaic.PureOps.Ideal
import Idealize.ShloMosaic.Lib.ValueIdx

noncomputable section

namespace Cert.Spec

open Idealize.ShloMosaic Idealize.ShloMosaic.ValueIdx

/-- The score of one query row `qr` against key position `c`: the inner product over the features, times 2⁻³. -/
def score (qr : Fin 64 → EReal) (K : Fin 2048 → Fin 64 → EReal) (c : Fin 2048) : EReal :=
  (∑ e : Fin 64, qr e * K c e) * Ideal.ofBits .f32 0x3E000000#32

/-- The largest score of a row, folded from -∞. -/
def rowMax (s : Fin 2048 → EReal) : EReal :=
  (Finset.univ : Finset (Fin 2048)).fold max (Ideal.ofBits .f32 0xFF800000#32) s

/-- The unnormalised weight of position `c`: exp of the score less the row's maximum. -/
def weight (s : Fin 2048 → EReal) (c : Fin 2048) : EReal := Ideal.exp (s c - rowMax s)

/-- The normalised weight: the weight over the sum of the row's weights. -/
def prob (s : Fin 2048 → EReal) (c : Fin 2048) : EReal :=
  Ideal.div (weight s c) (∑ c' : Fin 2048, weight s c')

/-- One row of attention: the values averaged by the normalised weights of the row's scores. -/
def attnRow (qr : Fin 64 → EReal) (K V : Fin 2048 → Fin 64 → EReal) (d : Fin 64) : EReal :=
  ∑ c : Fin 2048, prob (score qr K) c * V c d

/-- The arrays' shape: batch, position, head, feature. -/
abbrev Arr : Shape := ⟨4, ![2, 2048, 16, 64]⟩

/-- The result at batch `b`, position `n`, head `h`, feature `d`. -/
def attentionAt (q k v : Arr.Idx → EReal) (b : Fin 2) (n : Fin 2048) (h : Fin 16) (d : Fin 64) : EReal :=
  attnRow (fun e => q (ix4 b n h e)) (fun c e => k (ix4 b c h e)) (fun c e => v (ix4 b c h e)) d

/-- The whole result array. -/
def attention (q k v : Arr.Idx → EReal) : Arr.Idx → EReal :=
  fun i => attentionAt q k v (i 0) (i 1) (i 2) (i 3)

theorem attention_ix4 (q k v : Arr.Idx → EReal) (b : Fin 2) (n : Fin 2048) (h : Fin 16) (d : Fin 64) :
    attention q k v (ix4 b n h d) = attentionAt q k v b n h d := rfl

end Cert.Spec

end
-- ==== Proof.Body.lean ====
/-
  The kernel body's arithmetic, stage by stage, read at explicit coordinates.

  For one head the body takes a block of 512 query rows and the 2048 key and value rows (64 features each) and forms:
  the scores (queries times transposed keys, times 2⁻³), the row maxima, the weights exp (score - row maximum), the row
  sums, the normalised weights, and their product with the values.  Each stage is named here over the body's literal
  shapes, and read at a row r and a column c (or feature d) as the corresponding stage of the specification's row
  function.  A change of float format is the identity on extended reals, so the roundings to bf16 drop out.
-/
import proofs.«142444_j46849503265234_2_alg».proof.Proof.Gen.KernelIdeal
import proofs.«142444_j46849503265234_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Facts₀

/-! ## The stages -/

/-- Queries against transposed keys, into a zero accumulator, scaled by 2⁻³. -/
def scores (q : FVec Ideal S512x64 .bf16) (k : FVec Ideal S2048x64 .bf16) : FVec Ideal S512x2048 .f32 :=
  mulf (matmul dot_S512x64_S64x2048_S512x2048_1_0_0_1_n_n none q
      (transpose S64x2048 [1, 0] k transposes_S2048x64_p1_0_S64x2048) (constant S512x2048 .f32 0x00000000#32))
    (broadcast S512x2048 (Scalar.ofBits .f32 0x3E000000#32))

/-- The maximum of each row, from -∞. -/
def rowMaxes (s : FVec Ideal S512x2048 .f32) : FVec Ideal S512 .f32 :=
  multiReduction .maximumf [1] S512 s 0xFF800000#32 reduces_S512x2048_S512 (.inl rfl) rfl

/-- One value per row, repeated along the row. -/
def column (v : FVec Ideal S512 .f32) : FVec Ideal S512x2048 .f32 :=
  broadcastTo S512x2048 (shapeCast S512x1 v shapeCasts_S512_S512x1) broadcasts_S512x1_S512x2048

/-- exp of the score less its row's maximum. -/
def weights (s : FVec Ideal S512x2048 .f32) : FVec Ideal S512x2048 .f32 :=
  exp (subf s (column (rowMaxes s)))

/-- The sum of each row, from zero. -/
def rowSums (e : FVec Ideal S512x2048 .f32) : FVec Ideal S512 .f32 :=
  multiReduction .add [1] S512 e 0x00000000#32 reduces_S512x2048_S512 (.inl rfl) rfl

/-- Each weight over its row's sum. -/
def probs (e : FVec Ideal S512x2048 .f32) : FVec Ideal S512x2048 .f32 :=
  divf e (column (rowSums e))

/-- Normalised weights times values, into a zero accumulator. -/
def mix (p : FVec Ideal S512x2048 .f32) (v : FVec Ideal S2048x64 .bf16) : FVec Ideal S512x64 .f32 :=
  matmul dot_S512x2048_S2048x64_S512x64_1_0_0_1_n_n none (truncf .bf16 p bitsLt_bf16_f32) v
    (constant S512x64 .f32 0x00000000#32)

/-- One head: from the three loaded half blocks to the stored half block. -/
def headAttn (q : Vec Ideal S1x512x64 .f32) (k v : Vec Ideal S1x2048x64 .f32) : FVec Ideal S1x512x64 .f32 :=
  shapeCast S1x512x64
    (mix (probs (weights (scores
        (truncf .bf16 (shapeCast S512x64 q shapeCasts_S1x512x64_S512x64) bitsLt_bf16_f32)
        (truncf .bf16 (shapeCast S2048x64 k shapeCasts_S1x2048x64_S2048x64) bitsLt_bf16_f32))))
      (truncf .bf16 (shapeCast S2048x64 v shapeCasts_S1x2048x64_S2048x64) bitsLt_bf16_f32))
    shapeCasts_S512x64_S1x512x64

/-! ## The two matrix products as sums over the contracted coordinate -/

/-- The operand indices of this product, coordinate by coordinate: the left operand is read at (row, contracted), the
    right one at (contracted, column). -/
theorem matmul_qk_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem matmul_qk_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem matmul_qk_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem matmul_qk_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- Row r of the left operand against column c of the right one, over the 64 features. -/
theorem matmul_qk_apply (q : FVec Ideal S512x64 .bf16) (kT : FVec Ideal S64x2048 .bf16) (r : Fin 512) (c : Fin 2048) :
    matmul dot_S512x64_S64x2048_S512x2048_1_0_0_1_n_n none q kT (constant S512x2048 .f32 0x00000000#32) (ix2 r c)
      = ∑ e : Fin 64, q (ix2 r e) * kT (ix2 e c) := by
  refine (Ideal.matmul_constant_zero_apply dot_S512x64_S64x2048_S512x2048_1_0_0_1_n_n none q kT (ix2 r c)).trans ?_
  rw [← Equiv.sum_comp (ValueIdx.contrEquiv1 dot_S512x64_S64x2048_S512x2048_1_0_0_1_n_n 64 rfl rfl).symm]
  refine Finset.sum_congr rfl fun e _ => ?_
  have hk := ValueIdx.contrEquiv1_symm_val dot_S512x64_S64x2048_S512x2048_1_0_0_1_n_n 64 rfl rfl e
  have el : dot_S512x64_S64x2048_S512x2048_1_0_0_1_n_n.lhsIdx (ix2 r c) ((ValueIdx.contrEquiv1 dot_S512x64_S64x2048_S512x2048_1_0_0_1_n_n 64 rfl rfl).symm e) = ix2 r e :=
    funext fun a => Fin.ext (by
      match a with
      | ⟨0, _⟩ => exact matmul_qk_lhs0 _ _
      | ⟨1, _⟩ => exact (matmul_qk_lhs1 _ _).trans hk)
  have er : dot_S512x64_S64x2048_S512x2048_1_0_0_1_n_n.rhsIdx (ix2 r c) ((ValueIdx.contrEquiv1 dot_S512x64_S64x2048_S512x2048_1_0_0_1_n_n 64 rfl rfl).symm e) = ix2 e c :=
    funext fun a => Fin.ext (by
      match a with
      | ⟨0, _⟩ => exact (matmul_qk_rhs0 _ _).trans hk
      | ⟨1, _⟩ => exact matmul_qk_rhs1 _ _)
  rw [el, er]

/-- The operand indices of this product, coordinate by coordinate: the left operand is read at (row, contracted), the
    right one at (contracted, column). -/
theorem matmul_pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem matmul_pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem matmul_pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem matmul_pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Row r of the left operand against column d of the right one, over the 2048 positions. -/
theorem matmul_pv_apply (p : FVec Ideal S512x2048 .bf16) (v : FVec Ideal S2048x64 .bf16) (r : Fin 512) (d : Fin 64) :
    matmul dot_S512x2048_S2048x64_S512x64_1_0_0_1_n_n none p v (constant S512x64 .f32 0x00000000#32) (ix2 r d)
      = ∑ c : Fin 2048, p (ix2 r c) * v (ix2 c d) := by
  refine (Ideal.matmul_constant_zero_apply dot_S512x2048_S2048x64_S512x64_1_0_0_1_n_n none p v (ix2 r d)).trans ?_
  rw [← Equiv.sum_comp (ValueIdx.contrEquiv1 dot_S512x2048_S2048x64_S512x64_1_0_0_1_n_n 2048 rfl rfl).symm]
  refine Finset.sum_congr rfl fun c _ => ?_
  have hk := ValueIdx.contrEquiv1_symm_val dot_S512x2048_S2048x64_S512x64_1_0_0_1_n_n 2048 rfl rfl c
  have el : dot_S512x2048_S2048x64_S512x64_1_0_0_1_n_n.lhsIdx (ix2 r d) ((ValueIdx.contrEquiv1 dot_S512x2048_S2048x64_S512x64_1_0_0_1_n_n 2048 rfl rfl).symm c) = ix2 r c :=
    funext fun a => Fin.ext (by
      match a with
      | ⟨0, _⟩ => exact matmul_pv_lhs0 _ _
      | ⟨1, _⟩ => exact (matmul_pv_lhs1 _ _).trans hk)
  have er : dot_S512x2048_S2048x64_S512x64_1_0_0_1_n_n.rhsIdx (ix2 r d) ((ValueIdx.contrEquiv1 dot_S512x2048_S2048x64_S512x64_1_0_0_1_n_n 2048 rfl rfl).symm c) = ix2 c d :=
    funext fun a => Fin.ext (by
      match a with
      | ⟨0, _⟩ => exact (matmul_pv_rhs0 _ _).trans hk
      | ⟨1, _⟩ => exact matmul_pv_rhs1 _ _)
  rw [el, er]

/-! ## One value per row, and a row's reductions -/

/-- Row r with column c put back is (r, c). -/
theorem lift_row (r : Fin 512) (c : Fin (S512x2048.size 1)) :
    reduces_S512x2048_S512.lift (ix1 r) c = ix2 r (⟨c.val, c.isLt⟩ : Fin 2048) := by
  funext a; apply Fin.ext
  match a with
  | ⟨0, _⟩ => rfl
  | ⟨1, _⟩ => rfl

/-- A vector of 512 entries laid out as a column and repeated along each row reads its row's entry. -/
theorem column_apply (v : FVec Ideal S512 .f32) (r : Fin 512) (c : Fin 2048) : column v (ix2 r c) = v (ix1 r) := by
  unfold column
  refine (broadcastTo_apply _ broadcasts_S512x1_S512x2048 (ix2 r c) (ix2 r (0 : Fin 1)) fun a => ?_).trans ?_
  · match a with
    | ⟨0, _⟩ => rfl
    | ⟨1, _⟩ => rfl
  · refine shapeCast_apply v shapeCasts_S512_S512x1 (ix2 r (0 : Fin 1)) (ix1 r) ?_
    rw [Shape.rowMajor_val_one, Shape.rowMajor_val_two]
    show r.val = r.val * 1 + 0
    omega

/-- The row maximum is the fold of max from -∞ over the row. -/
theorem rowMaxes_apply (s : FVec Ideal S512x2048 .f32) (r : Fin 512) :
    rowMaxes s (ix1 r) = Cert.Spec.rowMax (fun c => s (ix2 r c)) := by
  unfold rowMaxes Cert.Spec.rowMax
  refine (Ideal.multiReduction_maximumf_single s 0xFF800000#32 reduces_S512x2048_S512 (.inl rfl) rfl (ix1 r)).trans ?_
  exact congrArg (fun f => Finset.fold max (Ideal.ofBits .f32 0xFF800000#32) f (Finset.univ : Finset (Fin 2048)))
    (funext fun c => congrArg s (lift_row r c))

/-- The row sum is the sum over the row. -/
theorem rowSums_apply (e : FVec Ideal S512x2048 .f32) (r : Fin 512) :
    rowSums e (ix1 r) = ∑ c : Fin 2048, e (ix2 r c) := by
  unfold rowSums
  refine (Ideal.multiReduction_add_single e 0x00000000#32 reduces_S512x2048_S512 (.inl rfl) rfl (ix1 r)).trans ?_
  exact Finset.sum_congr rfl fun c _ => congrArg e (lift_row r c)

/-! ## The stages at an index -/

theorem scores_apply (q : FVec Ideal S512x64 .bf16) (k : FVec Ideal S2048x64 .bf16) (r : Fin 512) (c : Fin 2048) :
    scores q k (ix2 r c) = Cert.Spec.score (fun e => q (ix2 r e)) (fun c e => k (ix2 c e)) c := by
  unfold scores Cert.Spec.score
  show matmul _ none q _ _ (ix2 r c) * Ideal.ofBits .f32 0x3E000000#32 = _
  rw [matmul_qk_apply]
  refine congrArg (· * Ideal.ofBits .f32 0x3E000000#32) (Finset.sum_congr rfl fun e _ => ?_)
  rw [transpose_ix2_apply k transposes_S2048x64_p1_0_S64x2048 e c]

theorem weights_apply (s : FVec Ideal S512x2048 .f32) (r : Fin 512) (c : Fin 2048) :
    weights s (ix2 r c) = Cert.Spec.weight (fun c => s (ix2 r c)) c := by
  unfold weights Cert.Spec.weight
  show Ideal.exp (s (ix2 r c) - column (rowMaxes s) (ix2 r c)) = _
  rw [column_apply, rowMaxes_apply]

theorem probs_apply (s : FVec Ideal S512x2048 .f32) (r : Fin 512) (c : Fin 2048) :
    probs (weights s) (ix2 r c) = Cert.Spec.prob (fun c => s (ix2 r c)) c := by
  unfold probs Cert.Spec.prob
  show Ideal.div (weights s (ix2 r c)) (column (rowSums (weights s)) (ix2 r c)) = _
  rw [column_apply, rowSums_apply, weights_apply]
  exact congrArg (Ideal.div _) (Finset.sum_congr rfl fun c' _ => weights_apply s r c')

theorem mix_apply (p : FVec Ideal S512x2048 .f32) (v : FVec Ideal S2048x64 .bf16) (r : Fin 512) (d : Fin 64) :
    mix p v (ix2 r d) = ∑ c : Fin 2048, p (ix2 r c) * v (ix2 c d) := by
  unfold mix
  exact matmul_pv_apply _ v r d

/-- One head's stored half block at row r and feature d is the specification's row function of the loaded half blocks. -/
theorem headAttn_apply (q : Vec Ideal S1x512x64 .f32) (k v : Vec Ideal S1x2048x64 .f32) (u : Fin 1) (r : Fin 512) (d : Fin 64) :
    headAttn q k v (ix3 u r d)
      = Cert.Spec.attnRow (fun e => q (ix3 (0 : Fin 1) r e)) (fun c e => k (ix3 (0 : Fin 1) c e))
          (fun c e => v (ix3 (0 : Fin 1) c e)) d := by
  unfold headAttn Cert.Spec.attnRow
  rw [shapeCast_ab_1ab_apply _ shapeCasts_S512x64_S1x512x64 u r d, mix_apply]
  refine Finset.sum_congr rfl fun c _ => ?_
  rw [probs_apply]
  have hs : (fun c => scores (truncf .bf16 (shapeCast S512x64 q shapeCasts_S1x512x64_S512x64) bitsLt_bf16_f32)
        (truncf .bf16 (shapeCast S2048x64 k shapeCasts_S1x2048x64_S2048x64) bitsLt_bf16_f32) (ix2 r c))
      = Cert.Spec.score (fun e => q (ix3 (0 : Fin 1) r e)) (fun c e => k (ix3 (0 : Fin 1) c e)) := by
    funext c
    rw [scores_apply]
    refine congrArg₂ (fun a b => Cert.Spec.score a b c) (funext fun e => ?_) (funext fun c => funext fun e => ?_)
    · exact shapeCast_1ab_ab_apply q shapeCasts_S1x512x64_S512x64 r e
    · exact shapeCast_1ab_ab_apply k shapeCasts_S1x2048x64_S2048x64 c e
  rw [hs]
  exact congrArg (Cert.Spec.prob _ c * ·) (shapeCast_1ab_ab_apply v shapeCasts_S1x2048x64_S2048x64 c d)

end Cert.KernelIdeal.Body

end
-- ==== Proof.Block.lean ====
/-
  What one grid point leaves in the output window's staging buffer, as one function of the three input blocks.

  A block of the output is [1, 512, 128]: 512 query positions and 128 lanes, which are two heads of 64 features each.
  The body stores the two heads' results through two rectangles, lanes 0–63 and lanes 64–127, each computed from the
  same lanes of the query, key and value blocks.  So the buffer at row r and lane 64 g + d (g the head within the pair) is
  the specification's row function of row r of the query block and of all rows of the key and value blocks, restricted to
  the lanes of head g, at feature d.
-/
import proofs.«142444_j46849503265234_2_alg».proof.Proof.Gen.KernelIdeal.Frame
import proofs.«142444_j46849503265234_2_alg».proof.Proof.Body

noncomputable section

namespace Cert.KernelIdeal.Block

open Idealize.ShloMosaic Idealize.ShloMosaic.ValueIdx Cert.KernelIdeal Cert.KernelIdeal.Facts₀ Cert.KernelIdeal.Gen

/-! ## The two payloads are one head's attention -/

/-- The first head's stored value is the head function of its three loads. -/
theorem payA_eq (v0 : Vec Ideal S1x512x64 .f32) (v3 v6 : Vec Ideal S1x2048x64 .f32) :
    k0_pay2 (F := Ideal) v0 v3 v6 = Body.headAttn v0 v3 v6 := rfl

/-- So is the second head's, whose query and key loads pass through the format change first. -/
theorem payB_eq (v27 : Vec Ideal S1x512x64 .f32) (v30 v33 : Vec Ideal S1x2048x64 .f32) :
    k0_pay1 (F := Ideal) (k0_pay3 v27) (k0_pay4 v30) v33 = Body.headAttn v27 v30 v33 := rfl

/-! ## The buffer as a function of the input blocks -/

/-- Lane 64 g + e of a block: feature e of the pair's head g. -/
def lane (g : Fin 2) (e : Fin 64) : Fin 128 := ⟨64 * g.val + e.val, by omega⟩

/-- The buffer at row r, head g of the pair, feature d. -/
def blockAt (x0 : Vec Ideal S1x512x128 .f32) (x1 x2 : Vec Ideal S1x2048x128 .f32) (g : Fin 2) (r : Fin 512) (d : Fin 64) : EReal :=
  Cert.Spec.attnRow (fun e => x0 (ix3 (0 : Fin 1) r (lane g e))) (fun c e => x1 (ix3 (0 : Fin 1) c (lane g e)))
    (fun c e => x2 (ix3 (0 : Fin 1) c (lane g e))) d

/-- The whole buffer: lane l belongs to head l / 64 of the pair, at feature l % 64. -/
def block (x0 : Vec Ideal S1x512x128 .f32) (x1 x2 : Vec Ideal S1x2048x128 .f32) : Vec Ideal S1x512x128 .f32 :=
  fun y => blockAt x0 x1 x2 ⟨(y 2).val / 64, by have h : (y 2).val < 128 := (y 2).isLt; omega⟩ ⟨(y 1).val, (y 1).isLt⟩
    ⟨(y 2).val % 64, Nat.mod_lt _ (by decide)⟩

theorem block_lane (x0 : Vec Ideal S1x512x128 .f32) (x1 x2 : Vec Ideal S1x2048x128 .f32) (u : Fin 1) (g : Fin 2) (r : Fin 512) (d : Fin 64) :
    block x0 x1 x2 (ix3 u r (lane g d)) = blockAt x0 x1 x2 g r d := by
  unfold block
  have hg : (64 * g.val + d.val) / 64 = g.val := by have := d.isLt; omega
  have hd : (64 * g.val + d.val) % 64 = d.val := by have := d.isLt; omega
  exact congrArg₂ (fun a b => blockAt x0 x1 x2 a r b) (Fin.ext hg) (Fin.ext hd)

/-- The head function at row r and feature d, for half blocks whose entries are known: the row function of those entries. -/
theorem headAttn_apply_of (q : Vec Ideal S1x512x64 .f32) (k v : Vec Ideal S1x2048x64 .f32) (u : Fin 1) (r : Fin 512) (d : Fin 64)
    (q' : Fin 64 → EReal) (k' v' : Fin 2048 → Fin 64 → EReal)
    (hq : ∀ e, q (ix3 (0 : Fin 1) r e) = q' e) (hk : ∀ c e, k (ix3 (0 : Fin 1) c e) = k' c e)
    (hv : ∀ c e, v (ix3 (0 : Fin 1) c e) = v' c e) :
    Body.headAttn q k v (ix3 u r d) = Cert.Spec.attnRow q' k' v' d := by
  rw [Body.headAttn_apply]
  have h0 : (fun e => q (ix3 (0 : Fin 1) r e)) = q' := funext hq
  have h1 : (fun c e => k (ix3 (0 : Fin 1) c e)) = k' := funext fun c => funext (hk c)
  have h2 : (fun c e => v (ix3 (0 : Fin 1) c e)) = v' := funext fun c => funext (hv c)
  rw [h0, h1, h2]

/-! ## A load through a half-lane rectangle -/

theorem ld_q_A (x0 : Vec Ideal S1x512x128 .f32) (u : Fin 1) (r : Fin 512) (e : Fin 64) :
    View.ld x0 r0_0 (ix3 u r e) = x0 (ix3 (0 : Fin 1) r (lane 0 e)) :=
  congrArg x0 (funext fun a => Fin.ext (by
    match a with
    | ⟨0, _⟩ => show 0 + 1 * u.val = 0; omega
    | ⟨1, _⟩ => show 0 + 1 * r.val = r.val; omega
    | ⟨2, _⟩ => show 0 + 1 * e.val = 64 * 0 + e.val; omega))

theorem ld_q_B (x0 : Vec Ideal S1x512x128 .f32) (u : Fin 1) (r : Fin 512) (e : Fin 64) :
    View.ld x0 r0_2 (ix3 u r e) = x0 (ix3 (0 : Fin 1) r (lane 1 e)) :=
  congrArg x0 (funext fun a => Fin.ext (by
    match a with
    | ⟨0, _⟩ => show 0 + 1 * u.val = 0; omega
    | ⟨1, _⟩ => show 0 + 1 * r.val = r.val; omega
    | ⟨2, _⟩ => show 64 + 1 * e.val = 64 * 1 + e.val; omega))

theorem ld_kv_A (x1 : Vec Ideal S1x2048x128 .f32) (u : Fin 1) (c : Fin 2048) (e : Fin 64) :
    View.ld x1 r0_1 (ix3 u c e) = x1 (ix3 (0 : Fin 1) c (lane 0 e)) :=
  congrArg x1 (funext fun a => Fin.ext (by
    match a with
    | ⟨0, _⟩ => show 0 + 1 * u.val = 0; omega
    | ⟨1, _⟩ => show 0 + 1 * c.val = c.val; omega
    | ⟨2, _⟩ => show 0 + 1 * e.val = 64 * 0 + e.val; omega))

theorem ld_kv_B (x1 : Vec Ideal S1x2048x128 .f32) (u : Fin 1) (c : Fin 2048) (e : Fin 64) :
    View.ld x1 r0_3 (ix3 u c e) = x1 (ix3 (0 : Fin 1) c (lane 1 e)) :=
  congrArg x1 (funext fun a => Fin.ext (by
    match a with
    | ⟨0, _⟩ => show 0 + 1 * u.val = 0; omega
    | ⟨1, _⟩ => show 0 + 1 * c.val = c.val; omega
    | ⟨2, _⟩ => show 64 + 1 * e.val = 64 * 1 + e.val; omega))

/-! ## Each stored piece is the buffer function under its rectangle -/

theorem pieceA (x0 : Vec Ideal S1x512x128 .f32) (x1 x2 : Vec Ideal S1x2048x128 .f32) (x : S1x512x64.Idx) :
    k0_pay2 (F := Ideal) (View.ld x0 r0_0) (View.ld x1 r0_1) (View.ld x2 r0_1) x = block x0 x1 x2 (r0_0.emb x) := by
  obtain ⟨u, r, d, rfl⟩ : ∃ (u : Fin 1) (r : Fin 512) (d : Fin 64), x = ix3 u r d := ⟨x 0, x 1, x 2, eq_ix3 x⟩
  have hy : r0_0.emb (ix3 u r d) = ix3 (0 : Fin 1) r (lane 0 d) := funext fun a => Fin.ext (by
    match a with
    | ⟨0, _⟩ => show 0 + 1 * u.val = 0; omega
    | ⟨1, _⟩ => show 0 + 1 * r.val = r.val; omega
    | ⟨2, _⟩ => show 0 + 1 * d.val = 64 * 0 + d.val; omega)
  rw [hy, block_lane, payA_eq]
  unfold blockAt
  exact headAttn_apply_of _ _ _ u r d _ _ _ (fun e => ld_q_A x0 0 r e) (fun c e => ld_kv_A x1 0 c e)
    (fun c e => ld_kv_A x2 0 c e)

theorem pieceB (x0 : Vec Ideal S1x512x128 .f32) (x1 x2 : Vec Ideal S1x2048x128 .f32) (x : S1x512x64.Idx) :
    k0_pay1 (F := Ideal) (k0_pay3 (View.ld x0 r0_2)) (k0_pay4 (View.ld x1 r0_3)) (View.ld x2 r0_3) x
      = block x0 x1 x2 (r0_2.emb x) := by
  obtain ⟨u, r, d, rfl⟩ : ∃ (u : Fin 1) (r : Fin 512) (d : Fin 64), x = ix3 u r d := ⟨x 0, x 1, x 2, eq_ix3 x⟩
  have hy : r0_2.emb (ix3 u r d) = ix3 (0 : Fin 1) r (lane 1 d) := funext fun a => Fin.ext (by
    match a with
    | ⟨0, _⟩ => show 0 + 1 * u.val = 0; omega
    | ⟨1, _⟩ => show 0 + 1 * r.val = r.val; omega
    | ⟨2, _⟩ => show 64 + 1 * d.val = 64 * 1 + d.val; omega)
  rw [hy, block_lane, payB_eq]
  unfold blockAt
  exact headAttn_apply_of _ _ _ u r d _ _ _ (fun e => ld_q_B x0 0 r e) (fun c e => ld_kv_B x1 0 c e)
    (fun c e => ld_kv_B x2 0 c e)

/-- The staging buffer after the body is the buffer function of the input blocks: both stored pieces restrict it, and
    together they cover the buffer. -/
theorem out_eq_block (x0 : Vec Ideal S1x512x128 .f32) (x1 x2 : Vec Ideal S1x2048x128 .f32) :
    out0_3 (F := Ideal) x0 x1 x2 = block x0 x1 x2 := by
  funext y
  unfold out0_3
  refine View.canon_apply_of_pieces (block x0 x1 x2) _ ?_ y (cover0_3 _ _ y)
  intro p hp x
  simp only [List.mem_cons, List.mem_nil_iff, or_false] at hp
  rcases hp with rfl | rfl
  · exact pieceB x0 x1 x2 x
  · exact pieceA x0 x1 x2 x

end Cert.KernelIdeal.Block

end
-- ==== Proof.Tiles.lean ====
/-
  From a point's block to the whole array, as arithmetic on indices.

  The kernel works on the arrays with heads and features merged: [2, 2048, 16, 64] viewed as [2, 2048, 1024], lane
  64 h + e holding feature e of head h.  Grid point (b, p, i) — batch b, head pair p, query tile i — takes rows
  512 i … 512 i + 511 and lanes 128 p … 128 p + 127 of the query array, and all 2048 rows of those lanes of the key and value
  arrays.  Lane 128 p + 64 g + e of the array is lane 64 g + e of the block, and belongs to head 2 p + g: so the block's
  buffer function is the block of ONE function of the merged arrays, and that function, with the lanes split back into
  heads and features, is the specification.
-/
import proofs.«142444_j46849503265234_2_alg».proof.Proof.Block
import Idealize.ShloMosaic.Lib.ValueIdx
import Idealize.ShloMosaic.Lib.Pipeline.Value

noncomputable section

namespace Cert.Tiles

open Idealize.ShloMosaic Idealize.ShloMosaic.ValueIdx Cert.KernelIdeal

/-- The arrays with heads and features apart, and merged. -/
abbrev A4 : Shape := ⟨4, ![2, 2048, 16, 64]⟩
abbrev A3 : Shape := ⟨3, ![2, 2048, 1024]⟩

/-- Lane 64 h + e of a merged array: feature e of head h. -/
def lane16 (h : Fin 16) (e : Fin 64) : Fin 1024 := ⟨64 * h.val + e.val, by omega⟩

/-! ## The two reshapes at an index -/

/-- Merging heads and features: the merged array at lane 64 h + e is the array at head h, feature e. -/
theorem merge_apply {α : Type} (x : A4.Idx → α) (hc : A4.ShapeCasts A3) (b : Fin 2) (n : Fin 2048) (h : Fin 16) (e : Fin 64) :
    shapeCast A3 x hc (ix3 b n (lane16 h e)) = x (ix4 b n h e) :=
  shapeCast_apply x hc _ _ (by
    rw [Shape.rowMajor_val_four, Shape.rowMajor_val_three]
    show ((b.val * 2048 + n.val) * 16 + h.val) * 64 + e.val = (b.val * 2048 + n.val) * 1024 + (64 * h.val + e.val)
    omega)

/-- Splitting them again: the split array at head h, feature d is the merged one at lane 64 h + d. -/
theorem split_apply {α : Type} (y : A3.Idx → α) (hc : A3.ShapeCasts A4) (b : Fin 2) (n : Fin 2048) (h : Fin 16) (d : Fin 64) :
    shapeCast A4 y hc (ix4 b n h d) = y (ix3 b n (lane16 h d)) :=
  shapeCast_apply y hc _ _ (by
    rw [Shape.rowMajor_val_four, Shape.rowMajor_val_three]
    show (b.val * 2048 + n.val) * 1024 + (64 * h.val + d.val) = ((b.val * 2048 + n.val) * 16 + h.val) * 64 + d.val
    omega)

/-! ## The result over the merged arrays -/

/-- The result at batch b, position n, head h, feature d, from merged arrays. -/
def mergedAt (a0 a1 a2 : A3.Idx → EReal) (b : Fin 2) (n : Fin 2048) (h : Fin 16) (d : Fin 64) : EReal :=
  Cert.Spec.attnRow (fun e => a0 (ix3 b n (lane16 h e))) (fun c e => a1 (ix3 b c (lane16 h e)))
    (fun c e => a2 (ix3 b c (lane16 h e))) d

/-- The merged result array: lane l is head l / 64, feature l % 64. -/
def merged (a0 a1 a2 : A3.Idx → EReal) : A3.Idx → EReal :=
  fun i => mergedAt a0 a1 a2 ⟨(i 0).val, (i 0).isLt⟩ ⟨(i 1).val, (i 1).isLt⟩
    ⟨(i 2).val / 64, by have h : (i 2).val < 1024 := (i 2).isLt; omega⟩ ⟨(i 2).val % 64, Nat.mod_lt _ (by decide)⟩

theorem merged_lane (a0 a1 a2 : A3.Idx → EReal) (b : Fin 2) (n : Fin 2048) (h : Fin 16) (d : Fin 64) :
    merged a0 a1 a2 (ix3 b n (lane16 h d)) = mergedAt a0 a1 a2 b n h d := by
  unfold merged
  have hh : (64 * h.val + d.val) / 64 = h.val := by have := d.isLt; omega
  have hd : (64 * h.val + d.val) % 64 = d.val := by have := d.isLt; omega
  exact congrArg₂ (fun x y => mergedAt a0 a1 a2 b n x y) (Fin.ext hh) (Fin.ext hd)

/-- Over the merged argument arrays it is the specification. -/
theorem mergedAt_merge (q k v : A4.Idx → EReal) (hc : A4.ShapeCasts A3) (b : Fin 2) (n : Fin 2048) (h : Fin 16) (d : Fin 64) :
    mergedAt (shapeCast A3 q hc) (shapeCast A3 k hc) (shapeCast A3 v hc) b n h d = Cert.Spec.attentionAt q k v b n h d := by
  unfold mergedAt Cert.Spec.attentionAt
  have h0 : (fun e => shapeCast A3 q hc (ix3 b n (lane16 h e))) = fun e => q (ix4 b n h e) :=
    funext fun e => merge_apply q hc b n h e
  have h1 : (fun c e => shapeCast A3 k hc (ix3 b c (lane16 h e))) = fun c e => k (ix4 b c h e) :=
    funext fun c => funext fun e => merge_apply k hc b c h e
  have h2 : (fun c e => shapeCast A3 v hc (ix3 b c (lane16 h e))) = fun c e => v (ix4 b c h e) :=
    funext fun c => funext fun e => merge_apply v hc b c h e
  rw [h0, h1, h2]

/-- The merged result of the merged arguments, split back, is the attention function of the arguments. -/
theorem split_merged (q k v : A4.Idx → EReal) (hc : A4.ShapeCasts A3) (hc' : A3.ShapeCasts A4) :
    shapeCast A4 (merged (shapeCast A3 q hc) (shapeCast A3 k hc) (shapeCast A3 v hc)) hc' = Cert.Spec.attention q k v := by
  funext i
  obtain ⟨b, n, h, d, rfl⟩ : ∃ (b : Fin 2) (n : Fin 2048) (h : Fin 16) (d : Fin 64), i = ix4 b n h d :=
    ⟨i 0, i 1, i 2, i 3, eq_ix4 i⟩
  rw [split_apply, merged_lane, mergedAt_merge, Cert.Spec.attention_ix4]

/-! ## A point's buffer is a block of the merged result -/

/-- Row 512 i + r of the array: row r of query tile i. -/
def rowOf (i : Fin 4) (r : Fin 512) : Fin 2048 := ⟨512 * i.val + r.val, by omega⟩
/-- Lane 128 p + l of the array: lane l of head pair p. -/
def laneOf (p : Fin 8) (l : Fin 128) : Fin 1024 := ⟨128 * p.val + l.val, by omega⟩

/-- If the three input blocks are the blocks of the merged arrays at batch b, head pair p and query tile i, the buffer
    function at row r and lane l is the merged result at row 512 i + r and lane 128 p + l. -/
theorem block_eq_merged (a0 a1 a2 : A3.Idx → EReal) (x0 : Vec Ideal S1x512x128 .f32) (x1 x2 : Vec Ideal S1x2048x128 .f32)
    (b : Fin 2) (p : Fin 8) (i : Fin 4)
    (h0 : ∀ (r : Fin 512) (l : Fin 128), x0 (ix3 (0 : Fin 1) r l) = a0 (ix3 b (rowOf i r) (laneOf p l)))
    (h1 : ∀ (c : Fin 2048) (l : Fin 128), x1 (ix3 (0 : Fin 1) c l) = a1 (ix3 b c (laneOf p l)))
    (h2 : ∀ (c : Fin 2048) (l : Fin 128), x2 (ix3 (0 : Fin 1) c l) = a2 (ix3 b c (laneOf p l)))
    (u : Fin 1) (r : Fin 512) (l : Fin 128) :
    Block.block x0 x1 x2 (ix3 u r l) = merged a0 a1 a2 (ix3 b (rowOf i r) (laneOf p l)) := by
  -- split the lane into the head within the pair and the feature
  obtain ⟨g, d, rfl⟩ : ∃ (g : Fin 2) (d : Fin 64), l = Block.lane g d :=
    ⟨⟨l.val / 64, by have := l.isLt; omega⟩, ⟨l.val % 64, Nat.mod_lt _ (by decide)⟩, Fin.ext (by
      show l.val = 64 * (l.val / 64) + l.val % 64; omega)⟩
  -- the array lane is lane 64 (2 p + g) + d
  have hl : ∀ e : Fin 64, laneOf p (Block.lane g e) = lane16 ⟨2 * p.val + g.val, by omega⟩ e := fun e =>
    Fin.ext (by show 128 * p.val + (64 * g.val + e.val) = 64 * (2 * p.val + g.val) + e.val; omega)
  rw [Block.block_lane, hl d, merged_lane]
  unfold Block.blockAt mergedAt
  have e0 : (fun e => x0 (ix3 (0 : Fin 1) r (Block.lane g e)))
      = fun e => a0 (ix3 b (rowOf i r) (lane16 ⟨2 * p.val + g.val, by omega⟩ e)) :=
    funext fun e => by rw [h0, hl]
  have e1 : (fun c e => x1 (ix3 (0 : Fin 1) c (Block.lane g e)))
      = fun c e => a1 (ix3 b c (lane16 ⟨2 * p.val + g.val, by omega⟩ e)) :=
    funext fun c => funext fun e => by rw [h1, hl]
  have e2 : (fun c e => x2 (ix3 (0 : Fin 1) c (Block.lane g e)))
      = fun c e => a2 (ix3 b c (lane16 ⟨2 * p.val + g.val, by omega⟩ e)) :=
    funext fun c => funext fun e => by rw [h2, hl]
  rw [e0, e1, e2]

end Cert.Tiles

end
-- ==== Proof.Whole.lean ====
/-
  The kernel's result array, from the frame run.

  The program merges heads and features of q, k, v ([2, 2048, 16, 64] to [2, 2048, 1024]), runs the kernel over the grid of
  2 batches × 8 head pairs × 4 query tiles, and splits the result's lanes back into heads and features.  At grid point
  (b, p, i) the query and output windows take rows 512 i … and lanes 128 p … of batch b, the key and value windows all rows
  of the same lanes.  What the point writes back is therefore a block of one function of the merged arrays; the 64 blocks
  tile the [2, 2048, 1024] result, so after the run the result array is that function, and split back it is the
  attention function of q, k, v.
-/
import proofs.«142444_j46849503265234_2_alg».proof.Proof.Gen.KernelIdeal.Frame
import proofs.«142444_j46849503265234_2_alg».proof.Proof.Block
import proofs.«142444_j46849503265234_2_alg».proof.Proof.Tiles
import Idealize.ShloMosaic.Lib.Pipeline.Value
import Idealize.ShloMosaic.Lib.StableHlo.Run

noncomputable section

namespace Cert.KernelIdeal.Whole

open Cert.KernelIdeal Cert.KernelIdeal.Facts₀ Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Tiles

variable (m : (ℓ : Loc nD τ sig) → Buf (Elt Ideal) ℓ) (ρ : Dev nD → PrngReg)

/-! ## The merged arrays as the region finds them -/

theorem V_q (c : Dev nD) : (V m c main_v0 : S2x2048x1024.Idx → EReal)
    = shapeCast S2x2048x1024 (m ((c : Thread nD τ).loc main_arg0)) Facts₀.shapeCasts_S2x2048x16x64_S2x2048x1024 := by
  show StableHlo.after hostOps0 (fun b => m (c, b)) (Proc.devRef .tc main_v0) = _
  after_results
  rfl

theorem V_k (c : Dev nD) : (V m c main_v1 : S2x2048x1024.Idx → EReal)
    = shapeCast S2x2048x1024 (m ((c : Thread nD τ).loc main_arg1)) Facts₀.shapeCasts_S2x2048x16x64_S2x2048x1024 := by
  show StableHlo.after hostOps0 (fun b => m (c, b)) (Proc.devRef .tc main_v1) = _
  after_results
  rfl

theorem V_v (c : Dev nD) : (V m c main_v2 : S2x2048x1024.Idx → EReal)
    = shapeCast S2x2048x1024 (m ((c : Thread nD τ).loc main_arg2)) Facts₀.shapeCasts_S2x2048x16x64_S2x2048x1024 := by
  show StableHlo.after hostOps0 (fun b => m (c, b)) (Proc.devRef .tc main_v2) = _
  after_results
  rfl

/-! ## The index maps over the grid -/

/-- Decided over the 64 points: the query window moves with the output window; the key and value windows share its
    batch and head pair and stay at row block 0; and the output's block indices range over 2 × 4 × 8. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) ≤ 1 ∧ win0_3.index t (1 : Fin 3) ≤ 3 ∧ win0_3.index t (2 : Fin 3) ≤ 7 :=
  (by decide +kernel : ∀ t : Fin grid0.N, _)

/-- Every block of the result is some point's. -/
theorem idx_onto : ∀ (q0 : Fin 2) (q1 : Fin 4) (q2 : Fin 8), ∃ t : Fin cfg0.N, win0_3.index t = ![q0.val, q1.val, q2.val] :=
  (by decide +kernel : ∀ (q0 : Fin 2) (q1 : Fin 4) (q2 : Fin 8), ∃ t : Fin grid0.N, win0_3.index t = ![q0.val, q1.val, q2.val])

/-! ## Each input block, read where the point's indices say -/

theorem blk_q (c : Dev nD) (t : Fin cfg0.N) (b : Fin 2) (p : Fin 8) (i : Fin 4)
    (e0 : win0_0.index t (0 : Fin 3) = b.val) (e1 : win0_0.index t (1 : Fin 3) = i.val)
    (e2 : win0_0.index t (2 : Fin 3) = p.val) (r : Fin 512) (l : Fin 128) :
    iblk m c 0 t (ix3 (0 : Fin 1) r l) = V m c main_v0 (ix3 b (rowOf i r) (laneOf p l)) := by
  show V m c main_v0 (((cfg0.win 0).blk t).view.emb (ix3 (0 : Fin 1) r l)) = _
  refine congrArg (V m c main_v0) (funext fun a => Fin.ext ?_)
  match a with
  | ⟨0, _⟩ => show win0_0.index t (0 : Fin 3) * 1 + 1 * 0 = b.val; omega
  | ⟨1, _⟩ => show win0_0.index t (1 : Fin 3) * 512 + 1 * r.val = 512 * i.val + r.val; omega
  | ⟨2, _⟩ => show win0_0.index t (2 : Fin 3) * 128 + 1 * l.val = 128 * p.val + l.val; omega

theorem blk_k (c : Dev nD) (t : Fin cfg0.N) (b : Fin 2) (p : Fin 8)
    (e0 : win0_1.index t (0 : Fin 3) = b.val) (e1 : win0_1.index t (1 : Fin 3) = 0)
    (e2 : win0_1.index t (2 : Fin 3) = p.val) (r : Fin 2048) (l : Fin 128) :
    iblk m c 1 t (ix3 (0 : Fin 1) r l) = V m c main_v1 (ix3 b r (laneOf p l)) := by
  show V m c main_v1 (((cfg0.win 1).blk t).view.emb (ix3 (0 : Fin 1) r l)) = _
  refine congrArg (V m c main_v1) (funext fun a => Fin.ext ?_)
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 128 + 1 * l.val = 128 * p.val + l.val; omega

theorem blk_v (c : Dev nD) (t : Fin cfg0.N) (b : Fin 2) (p : Fin 8)
    (e0 : win0_2.index t (0 : Fin 3) = b.val) (e1 : win0_2.index t (1 : Fin 3) = 0)
    (e2 : win0_2.index t (2 : Fin 3) = p.val) (r : Fin 2048) (l : Fin 128) :
    iblk m c 2 t (ix3 (0 : Fin 1) r l) = V m c main_v2 (ix3 b r (laneOf p l)) := by
  show V m c main_v2 (((cfg0.win 2).blk t).view.emb (ix3 (0 : Fin 1) r l)) = _
  refine congrArg (V m c main_v2) (funext fun a => Fin.ext ?_)
  match a with
  | ⟨0, _⟩ => show win0_2.index t (0 : Fin 3) * 1 + 1 * 0 = b.val; omega
  | ⟨1, _⟩ => show win0_2.index t (1 : Fin 3) * 2048 + 1 * r.val = r.val; omega
  | ⟨2, _⟩ => show win0_2.index t (2 : Fin 3) * 128 + 1 * l.val = 128 * p.val + l.val; omega

/-! ## What a point writes back -/

/-- Point t writes back block t of the merged result of the merged arrays. -/
theorem flushed_eq (c : Dev nD) (t : Fin cfg0.N) :
    (dats m 0 c).flushed 3 t
      = ((cfg0.win 3).blk t).view.read (Elt Ideal) (merged (V m c main_v0) (V m c main_v1) (V m c main_v2)) := by
  show (cfg0.win 3).cut (grid0.coords t) ((dats m 0 c).after 3 t) = _
  rw [after0_3, Block.out_eq_block]
  obtain ⟨q0, q1, q2, k0, k1, k2, v0, v1, v2, b0, b1, b2⟩ := idx_facts t
  funext y
  show Block.block (iblk m c 0 t) (iblk m c 1 t) (iblk m c 2 t) y
    = merged (V m c main_v0) (V m c main_v1) (V m c main_v2) (((cfg0.win 3).blk t).view.emb y)
  obtain ⟨u, r, l, rfl⟩ : ∃ (u : Fin 1) (r : Fin 512) (l : Fin 128), y = ix3 u r l := ⟨y 0, y 1, y 2, eq_ix3 y⟩
  have hemb : ((cfg0.win 3).blk t).view.emb (ix3 u r l)
      = ix3 (⟨win0_3.index t (0 : Fin 3), by omega⟩ : Fin 2) (rowOf ⟨win0_3.index t (1 : Fin 3), by omega⟩ r)
          (laneOf ⟨win0_3.index t (2 : Fin 3), by omega⟩ l) := by
    funext a; apply Fin.ext
    match a with
    | ⟨0, _⟩ => show win0_3.index t (0 : Fin 3) * 1 + 1 * u.val = win0_3.index t (0 : Fin 3); omega
    | ⟨1, _⟩ => show win0_3.index t (1 : Fin 3) * 512 + 1 * r.val = 512 * win0_3.index t (1 : Fin 3) + r.val; omega
    | ⟨2, _⟩ => show win0_3.index t (2 : Fin 3) * 128 + 1 * l.val = 128 * win0_3.index t (2 : Fin 3) + l.val; omega
  rw [hemb]
  exact block_eq_merged (V m c main_v0) (V m c main_v1) (V m c main_v2) (iblk m c 0 t) (iblk m c 1 t) (iblk m c 2 t)
    ⟨win0_3.index t (0 : Fin 3), by omega⟩ ⟨win0_3.index t (2 : Fin 3), by omega⟩ ⟨win0_3.index t (1 : Fin 3), by omega⟩
    (blk_q m c t _ _ _ q0 q1 q2) (blk_k m c t _ _ k0 k1 k2) (blk_v m c t _ _ v0 v1 v2) u r l

/-! ## The blocks tile the result -/

theorem mem_blk (t : Fin cfg0.N) (i : S2x2048x1024.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v3).slice (win0_3.rect t)).set ↔ _
  rw [View.set_slice_whole, Rect.mem_set_unit]
  exact Iff.rfl

/-- Row n lies in query tile n / 512 and lane l in head pair l / 128. -/
theorem cover (i : S2x2048x1024.Idx) :
    ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win0_3.index t (0 : Fin 3) = (i 0).val := congrFun ht 0
  have q1 : win0_3.index t (1 : Fin 3) = (i 1).val / 512 := congrFun ht 1
  have q2 : win0_3.index t (2 : Fin 3) = (i 2).val / 128 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 512 ≤ (i 1).val ∧ (i 1).val < win0_3.index t (1 : Fin 3) * 512 + 512; omega
  | ⟨2, _⟩ =>
    show win0_3.index t (2 : Fin 3) * 128 ≤ (i 2).val ∧ (i 2).val < win0_3.index t (2 : Fin 3) * 128 + 128; omega

/-- The result array after the run: the merged result of the merged argument arrays. -/
theorem final (c : Dev nD) : (dats m 0 c).arrAt 3 cfg0.N
    = merged (shapeCast S2x2048x1024 (m ((c : Thread nD τ).loc main_arg0)) Facts₀.shapeCasts_S2x2048x16x64_S2x2048x1024)
        (shapeCast S2x2048x1024 (m ((c : Thread nD τ).loc main_arg1)) Facts₀.shapeCasts_S2x2048x16x64_S2x2048x1024)
        (shapeCast S2x2048x1024 (m ((c : Thread nD τ).loc main_arg2)) Facts₀.shapeCasts_S2x2048x16x64_S2x2048x1024) := by
  rw [← V_q m c, ← V_k m c, ← V_v m c]
  exact (dats m 0 c).arrAt_eq_of_cover 3 _ (fun t _ => flushed_eq m c t) cover

/-! ## The lanes split back: the program's result -/

theorem tail_eq (c : Dev nD) :
    Pipeline.afterTail₀ cfgs (dats m) 0 (V0 m) [hostOps1] c main_v4
      = Cert.Spec.attention (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have harr := (Pipeline.withArrays_arr spec0 launch0.win.arr_inj c (V0 m c)
    (fun w => (dats m 0 c).arrAt w (cfgs 0).N) 3).trans (final m c)
  refine Eq.trans ?_ (split_merged (m ((c : Thread nD τ).loc main_arg0)) (m ((c : Thread nD τ).loc main_arg1))
    (m ((c : Thread nD τ).loc main_arg2)) Facts₀.shapeCasts_S2x2048x16x64_S2x2048x1024 Facts₀.shapeCasts_S2x2048x1024_S2x2048x16x64)
  exact congrArg (fun y => shapeCast S2x2048x16x64 y Facts₀.shapeCasts_S2x2048x1024_S2x2048x16x64) harr

/-! ## The run -/

/-- Every weakly fair execution of the program terminates with the result array at the attention function of the
    argument arrays, and the arguments unchanged. -/
theorem run : θ_run defs (onTc (τ := τ) (main (F := Ideal))) ⟨m, fun _ => 0, ρ⟩ fun r => ∀ c : Dev nD,
      r.2.mem ((c.tc : Thread nD τ).loc main_v4)
        = Cert.Spec.attention (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.Consts.lean ====
/-
  The float literals the two programs spell, as the extended reals their words denote, and the three
  elementary laws in which they meet.  The kernel scales a score by the word of 2⁻³; the reference divides it by the
  word of 2³; both start a row's maximum from the word of -∞ and a row's sum from the word of 0.
-/
import Idealize.ShloMosaic.PureOps.Ideal
import Idealize.ShloMosaic.PureOps.Ideal.Laws

noncomputable section

namespace Cert.Consts

open Idealize.ShloMosaic

/-- The word `0xFF800000` denotes -∞, the bottom of the extended reals. -/
theorem ofBits_negInf : Ideal.ofBits .f32 0xFF800000#32 = (⊥ : EReal) := by
  simp [Ideal.ofBits, Ideal.ieee]

/-- The word `0x41000000` denotes the real 8. -/
theorem ofBits_eight : Ideal.ofBits .f32 0x41000000#32 = ((8 : ℝ) : EReal) := by
  simp [Ideal.ofBits, Ideal.ieee, -EReal.coe_mul]; norm_num

/-- The word `0x3E000000` denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real (the infinities included). -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

/-- A maximum taken against -∞ is the other argument. -/
theorem max_negInf (y : EReal) : max (Ideal.ofBits .f32 0xFF800000#32) y = y := by
  rw [ofBits_negInf]; exact max_eq_right bot_le

/-- A sum started from the zero word is the sum. -/
theorem zero_add_word (y : EReal) : Ideal.ofBits .f32 0x00000000#32 + y = y := by
  rw [Ideal.ofBits_zero_f32, zero_add]

end Cert.Consts

end
-- ==== Proof.RefValue.lean ====
/-
  The reference program, one operation at a time, is the attention function of its three arguments.  It moves the
  arrays from [batch, position, head, feature] to [batch, head, position, feature]; scores a query position n against a
  key position c by the inner product over the 64 features, divided by 8; takes each row's maximum as a fold of max
  over the key positions from -∞, and once more against -∞; subtracts it, exponentiates, sums the row from 0, divides by
  the sum; averages the values by these normalised weights; and moves the result back.  Each step is read at literal
  coordinates.  Three elementary laws join its spellings to the specification's: dividing by 8 is multiplying by 1/8,
  a maximum against -∞ is the other argument, and a sum started from 0 is the sum.  No finiteness of the arguments is
  used: every equation holds on all extended reals.
-/
import proofs.«142444_j46849503265234_2_alg».proof.Proof.Gen.ReferenceIdeal.Read
import proofs.«142444_j46849503265234_2_alg».proof.Proof.Consts
import proofs.«142444_j46849503265234_2_alg».proof.Proof.Spec
import Idealize.ShloMosaic.PureOps.Reduce
import Idealize.ShloMosaic.PureOps.Ideal.Laws
import Idealize.ShloMosaic.Lib.ValueIdx

noncomputable section

namespace Cert.RefValue

open Idealize.ShloMosaic Idealize.ShloMosaic.ValueIdx Cert.ReferenceIdeal Cert.ReferenceIdeal.Gen Cert.ReferenceIdeal.Read

/-! ## Index equations: each layout operation's source index, at literal coordinates -/

theorem idx_q (b : Fin 2) (h : Fin 16) (n c : Fin 2048) (e : Fin 64) :
    idx_main_v0 (lidx_main_v3 (ix4 b h n c) e) = ix4 b n h e := by
  funext a; apply Fin.ext
  match a with | ⟨0, _⟩ => rfl | ⟨1, _⟩ => rfl | ⟨2, _⟩ => rfl | ⟨3, _⟩ => rfl

theorem idx_k (b : Fin 2) (h : Fin 16) (n c : Fin 2048) (e : Fin 64) :
    idx_main_v1 (ridx_main_v3 (ix4 b h n c) e) = ix4 b c h e := by
  funext a; apply Fin.ext
  match a with | ⟨0, _⟩ => rfl | ⟨1, _⟩ => rfl | ⟨2, _⟩ => rfl | ⟨3, _⟩ => rfl

/-- The scaled score of query position n against key position c. -/
theorem v5_at (x0 x1 : (⟨S2x2048x16x64, .f32⟩ : BufTy).Contents (Elt Ideal)) (b : Fin 2) (h : Fin 16) (n c : Fin 2048) :
    val_main_v5 (F := Ideal) x0 x1 (ix4 b h n c)
      = Cert.Spec.score (fun e => x0 (ix4 b n h e)) (fun c e => x1 (ix4 b c h e)) c := by
  rw [val_main_v5_apply, val_main_v3_apply, val_main_v4_apply, val_main_cst_apply]
  rw [Ideal.hostDivf_def, Ideal.ofBits_def, Cert.Consts.div_eight]
  unfold Cert.Spec.score
  refine congrArg (· * _) (Finset.sum_congr rfl fun e _ => ?_)
  rw [val_main_v0_apply, val_main_v1_apply, idx_q, idx_k]

/-! ## The row maximum: a fold of max over the key positions -/

/-- A row index with key position k put back on the reduced axis. -/
theorem lift_row (hR : S2x16x2048x2048.Reduces [3] S2x16x2048) (b : Fin 2) (h : Fin 16) (n : Fin 2048)
    (k : Fin (S2x16x2048x2048.size 3)) : hR.lift (ix3 b h n) k = ix4 b h n (⟨k.val, k.isLt⟩ : Fin 2048) := by
  funext c; apply Fin.ext
  fin_cases c <;> rfl

/-- A reduce with a maximum body over the last axis, from -∞, is at a row the fold of max over the row's entries. -/
theorem reduceMax_at (y : (⟨S2x16x2048x2048, .f32⟩ : BufTy).Contents (Elt Ideal)) (b : Fin 2) (h : Fin 16) (n : Fin 2048) :
    Host.reduce FloatOps.maximumf y (val_main_cst_0 (F := Ideal)) reducesTo_S2x16x2048x2048_S2x16x2048_d3 h_S_ (ix3 b h n)
      = (Finset.univ : Finset (Fin 2048)).fold max (Ideal.ofBits .f32 0xFF800000#32) (fun c => y (ix4 b h n c)) := by
  have hR : S2x16x2048x2048.Reduces [3] S2x16x2048 := by decide
  refine (Host.reduce_eq_fold_single (FloatOps.maximumf (F := Ideal) (φ := .f32)) y _
    reducesTo_S2x16x2048x2048_S2x16x2048_d3 hR h_S_ (ix3 b h n)).trans ?_
  have hf : (y ∘ hR.lift (ix3 b h n)) = fun c : Fin 2048 => y (ix4 b h n c) :=
    funext fun k => congrArg y (lift_row hR b h n k)
  exact congrArg (fun f => Finset.fold max (Ideal.ofBits .f32 0xFF800000#32) f (Finset.univ : Finset (Fin 2048))) hf

theorem v6_at (x0 x1 : (⟨S2x2048x16x64, .f32⟩ : BufTy).Contents (Elt Ideal)) (b : Fin 2) (h : Fin 16) (n : Fin 2048) :
    val_main_v6 (F := Ideal) x0 x1 (ix3 b h n)
      = Cert.Spec.rowMax (Cert.Spec.score (fun e => x0 (ix4 b n h e)) (fun c e => x1 (ix4 b c h e))) := by
  unfold val_main_v6
  rw [reduceMax_at]
  unfold Cert.Spec.rowMax
  exact congrArg (fun f => Finset.fold max (Ideal.ofBits .f32 0xFF800000#32) f (Finset.univ : Finset (Fin 2048)))
    (funext fun c => v5_at x0 x1 b h n c)

theorem v8_at (x0 x1 : (⟨S2x2048x16x64, .f32⟩ : BufTy).Contents (Elt Ideal)) (b : Fin 2) (h : Fin 16) (n : Fin 2048) :
    val_main_v8 (F := Ideal) x0 x1 (ix3 b h n)
      = Cert.Spec.rowMax (Cert.Spec.score (fun e => x0 (ix4 b n h e)) (fun c e => x1 (ix4 b c h e))) := by
  rw [val_main_v8_apply, val_main_v7_apply, val_main_cst_1_apply, Ideal.maximumf_def, Ideal.ofBits_def,
    Cert.Consts.max_negInf, v6_at]

/-! ## Weights, their sum, and the normalised weights -/

theorem idx_rowMax (b : Fin 2) (h : Fin 16) (n c : Fin 2048) :
    idx_main_v9 (idx_main_v10 (ix4 b h n c)) = ix3 b h n := by
  funext a; apply Fin.ext
  match a with | ⟨0, _⟩ => rfl | ⟨1, _⟩ => rfl | ⟨2, _⟩ => rfl

theorem idx_rowSum (b : Fin 2) (h : Fin 16) (n c : Fin 2048) :
    idx_main_v14 (idx_main_v15 (ix4 b h n c)) = ix3 b h n := by
  funext a; apply Fin.ext
  match a with | ⟨0, _⟩ => rfl | ⟨1, _⟩ => rfl | ⟨2, _⟩ => rfl

theorem idx_sum (b : Fin 2) (h : Fin 16) (n k : Fin 2048) :
    idx_main_v13 (ix3 b h n) k = ix4 b h n k := by
  funext a; apply Fin.ext
  match a with | ⟨0, _⟩ => rfl | ⟨1, _⟩ => rfl | ⟨2, _⟩ => rfl | ⟨3, _⟩ => rfl

/-- The unnormalised weight of key position c in the row of query position n. -/
theorem v12_at (x0 x1 : (⟨S2x2048x16x64, .f32⟩ : BufTy).Contents (Elt Ideal)) (b : Fin 2) (h : Fin 16) (n c : Fin 2048) :
    val_main_v12 (F := Ideal) x0 x1 (ix4 b h n c)
      = Cert.Spec.weight (Cert.Spec.score (fun e => x0 (ix4 b n h e)) (fun c e => x1 (ix4 b c h e))) c := by
  rw [val_main_v12_apply, val_main_v11_apply, val_main_v10_apply, val_main_v9_apply, idx_rowMax, v8_at, v5_at,
    Ideal.hostUnary_exp_def, Ideal.subf_def]
  rfl

/-- The sum of a row's weights. -/
theorem v13_at (x0 x1 : (⟨S2x2048x16x64, .f32⟩ : BufTy).Contents (Elt Ideal)) (b : Fin 2) (h : Fin 16) (n : Fin 2048) :
    val_main_v13 (F := Ideal) x0 x1 (ix3 b h n)
      = ∑ c : Fin 2048, Cert.Spec.weight (Cert.Spec.score (fun e => x0 (ix4 b n h e)) (fun c e => x1 (ix4 b c h e))) c := by
  rw [val_main_v13_apply, val_main_cst_2_apply, Ideal.ofBits_def, Cert.Consts.zero_add_word]
  refine Finset.sum_congr rfl fun c _ => ?_
  rw [idx_sum, v12_at]

/-- The normalised weight of key position c in the row of query position n. -/
theorem v16_at (x0 x1 : (⟨S2x2048x16x64, .f32⟩ : BufTy).Contents (Elt Ideal)) (b : Fin 2) (h : Fin 16) (n c : Fin 2048) :
    val_main_v16 (F := Ideal) x0 x1 (ix4 b h n c)
      = Cert.Spec.prob (Cert.Spec.score (fun e => x0 (ix4 b n h e)) (fun c e => x1 (ix4 b c h e))) c := by
  rw [val_main_v16_apply, val_main_v15_apply, val_main_v14_apply, idx_rowSum, v13_at, v12_at, Ideal.hostDivf_def]
  rfl

/-! ## The weighted sum of the values, and the result -/

theorem idx_p (b : Fin 2) (h : Fin 16) (n : Fin 2048) (d : Fin 64) (k : Fin 2048) :
    lidx_main_v17 (ix4 b h n d) k = ix4 b h n k := by
  funext a; apply Fin.ext
  match a with | ⟨0, _⟩ => rfl | ⟨1, _⟩ => rfl | ⟨2, _⟩ => rfl | ⟨3, _⟩ => rfl

theorem idx_v (b : Fin 2) (h : Fin 16) (n : Fin 2048) (d : Fin 64) (k : Fin 2048) :
    idx_main_v2 (ridx_main_v17 (ix4 b h n d) k) = ix4 b k h d := by
  funext a; apply Fin.ext
  match a with | ⟨0, _⟩ => rfl | ⟨1, _⟩ => rfl | ⟨2, _⟩ => rfl | ⟨3, _⟩ => rfl

theorem idx_out (b : Fin 2) (n : Fin 2048) (h : Fin 16) (d : Fin 64) :
    idx_main_v18 (ix4 b n h d) = ix4 b h n d := by
  funext a; apply Fin.ext
  match a with | ⟨0, _⟩ => rfl | ⟨1, _⟩ => rfl | ⟨2, _⟩ => rfl | ⟨3, _⟩ => rfl

/-- The values averaged by the row's normalised weights. -/
theorem v17_at (x0 x1 x2 : (⟨S2x2048x16x64, .f32⟩ : BufTy).Contents (Elt Ideal)) (b : Fin 2) (h : Fin 16) (n : Fin 2048)
    (d : Fin 64) :
    val_main_v17 (F := Ideal) x0 x1 x2 (ix4 b h n d) = Cert.Spec.attentionAt x0 x1 x2 b n h d := by
  rw [val_main_v17_apply]
  unfold Cert.Spec.attentionAt Cert.Spec.attnRow
  refine Finset.sum_congr rfl fun c _ => ?_
  rw [idx_p, v16_at, val_main_v2_apply, idx_v]

/-- The reference's result array, as the generated stage reads it, is the attention function of its three arguments. -/
theorem reference_eq (x0 x1 x2 : (⟨S2x2048x16x64, .f32⟩ : BufTy).Contents (Elt Ideal)) :
    val_main_v18 (F := Ideal) x0 x1 x2 = Cert.Spec.attention x0 x1 x2 := by
  funext i
  obtain ⟨b, n, h, d, rfl⟩ : ∃ (b : Fin 2) (n : Fin 2048) (h : Fin 16) (d : Fin 64), i = ix4 b n h d :=
    ⟨i 0, i 1, i 2, i 3, eq_ix4 i⟩
  rw [Cert.Spec.attention_ix4, val_main_v18_apply, idx_out, v17_at]

end Cert.RefValue

end
-- ==== Proof.lean ====
/-
  Scaled dot-product attention over q, k, v of shape [2, 2048, 16, 64] (batch, position, head, feature): a kernel that
  tiles the work by batch, head pair and query tile, against the plain array program.

  At the extended reals both compute, for every batch b and head h, the scores of query position n against every key
  position c (the inner product over the features, scaled by 1/8), the weights exp (score - row maximum), their
  normalisation by the row's sum, and the average of the values by these weights.  The kernel multiplies by the word of
  2⁻³ where the array program divides by the word of 2³: one law on every extended real.  Everything else is a matter of
  layout and of the order in which finite sums and a maximum are taken, which does not enter at exact arithmetic.  The
  claim therefore holds on all extended reals and the finiteness of the inputs is not used.

  The three frames are the programs' runs with the results dropped; the kernel was idealized with no rewrite, so that
  conjunct is trivial; the value claim sets the kernel's run (result array = attention of the arguments) beside the array
  program's run (its composed term = attention of the arguments) for arguments that agree.
-/
import proofs.«142444_j46849503265234_2_alg».proof.Defs
import proofs.«142444_j46849503265234_2_alg».proof.Proof.Gen.Kernel
import proofs.«142444_j46849503265234_2_alg».proof.Proof.Gen.Kernel.Skeleton
import proofs.«142444_j46849503265234_2_alg».proof.Proof.Gen.Kernel.Launch
import proofs.«142444_j46849503265234_2_alg».proof.Proof.Gen.Kernel.Points
import proofs.«142444_j46849503265234_2_alg».proof.Proof.Gen.Kernel.Frame
import proofs.«142444_j46849503265234_2_alg».proof.Proof.Gen.KernelIdeal
import proofs.«142444_j46849503265234_2_alg».proof.Proof.Gen.KernelIdeal.Skeleton
import proofs.«142444_j46849503265234_2_alg».proof.Proof.Gen.KernelIdeal.Launch
import proofs.«142444_j46849503265234_2_alg».proof.Proof.Gen.KernelIdeal.Points
import proofs.«142444_j46849503265234_2_alg».proof.Proof.Gen.KernelIdeal.Frame
import proofs.«142444_j46849503265234_2_alg».proof.Proof.Gen.ReferenceIdeal
import proofs.«142444_j46849503265234_2_alg».proof.Proof.Gen.Pre_finite_inputs
import proofs.«142444_j46849503265234_2_alg».proof.Proof.Gen.ReferenceIdeal.Run
import proofs.«142444_j46849503265234_2_alg».proof.Proof.Gen.ReferenceIdeal.Read
import proofs.«142444_j46849503265234_2_alg».proof.Proof.Whole
import proofs.«142444_j46849503265234_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The array program's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel was read at the extended reals as printed: nothing was rewritten. -/
theorem preserves : Cert.preserves_Kernel_KernelIdeal := trivial

/-- From arguments that agree, both programs end with the attention function of the arguments. -/
theorem algebraic : Cert.algebraic_KernelIdeal_ReferenceIdeal := by
  intro m ρ m' ρ' _ hagree
  refine ⟨fun c => Cert.Spec.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefValue.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
